-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v194) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x69 : Shape := ⟨2, ![100000, 69]⟩
abbrev S2x400000 : Shape := ⟨2, ![2, 400000]⟩
abbrev S100000 : Shape := ⟨1, ![100000]⟩
abbrev S69x256 : Shape := ⟨2, ![69, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S100000x69 : S_.BroadcastsInDim S100000x69 (![] : Fin 0 → Fin S100000x69.rank)
  reducesTo_S100000x69_S_d0_1 : S100000x69.ReducesTo [0, 1] S_
  h_S_ : 0 < S_.numel
  bcast_S_S69x256 : S_.BroadcastsInDim S69x256 (![] : Fin 0 → Fin S69x256.rank)
  reducesTo_S69x256_S_d0_1 : S69x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S256x2 .f32) (main_arg12 : FVec F S2 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x2 .f32 := Host.absf main_arg11
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x69 .f32) (main_arg1 : IVec S2x400000 32) (main_arg2 : IVec S100000 32) (main_arg3 : FVec F S69x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) : IVec S_ 1 :=
  let main_v0 : FVec F S100000x69 .f32 := Host.absf main_arg0
  let main_cst : FVec F S_ .f32 := constant S_ .f32 0x7F800000#32
  let main_v1 : FVec F S100000x69 .f32 := broadcastInDim S100000x69 ![] bcast_S_S100000x69 main_cst
  let main_v2 : IVec S100000x69 1 := cmpf .olt main_v0 main_v1
  let main_c : IVec S_ 1 := constantI S_ 1 1#1
  let main_v3 : IVec S_ 1 := (fun x v => Host.reduce IntOp.andi x v reducesTo_S100000x69_S_d0_1 h_S_) main_v2 main_c
  let main_v4 : FVec F S69x256 .f32 := Host.absf main_arg3
  let main_cst_0 : FVec F S_ .f32 := constant S_ .f32 0x7F800000#32
  let main_v5 : FVec F S69x256 .f32 := broadcastInDim S69x256 ![] bcast_S_S69x256 main_cst_0
  let main_v6 : IVec S69x256 1 := cmpf .olt main_v4 main_v5
  let main_c_1 : IVec S_ 1 := constantI S_ 1 1#1
  let main_v7 : IVec S_ 1 := (fun x v => Host.reduce IntOp.andi x v reducesTo_S69x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S100000x69 : Shape := ⟨2, ![100000, 69]⟩
abbrev S2x400000 : Shape := ⟨2, ![2, 400000]⟩
abbrev S100000 : Shape := ⟨1, ![100000]⟩
abbrev S69x256 : Shape := ⟨2, ![69, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x400000 : Shape := ⟨2, ![1, 400000]⟩
abbrev S400000 : Shape := ⟨1, ![400000]⟩
abbrev S100000x256 : Shape := ⟨2, ![100000, 256]⟩
abbrev S4000x69 : Shape := ⟨2, ![4000, 69]⟩
abbrev S4000x256 : Shape := ⟨2, ![4000, 256]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩
abbrev S4096x256 : Shape := ⟨2, ![4096, 256]⟩
abbrev S100000x1 : Shape := ⟨2, ![100000, 1]⟩
abbrev S4096 : Shape := ⟨1, ![4096]⟩
abbrev S4096x1 : Shape := ⟨2, ![4096, 1]⟩
abbrev S4096x2 : Shape := ⟨2, ![4096, 2]⟩
abbrev S1x2 : Shape := ⟨2, ![1, 2]⟩

abbrev nBuf : Space → Nat
  | .hbm => 270
  | .vmem => 23
  | .smem => 0
  | _ => 0

abbrev hbmTy0_0 (i : Nat) : BufTy := match i % 128 with
  | 0 => ⟨S100000x69, .f32⟩
  | 1 => ⟨S2x400000, .i32⟩
  | 2 => ⟨S100000, .i32⟩
  | 3 => ⟨S69x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x2, .f32⟩
  | 12 => ⟨S2, .f32⟩
  | 13 => ⟨S1x400000, .i32⟩
  | 14 => ⟨S400000, .i32⟩
  | 15 => ⟨S1x400000, .i32⟩
  | 16 => ⟨S400000, .i32⟩
  | 17 => ⟨S100000x256, .f32⟩
  | 18 => ⟨S100000, .i32⟩
  | 19 => ⟨S500000, .i32⟩
  | 20 => ⟨S500000, .i32⟩
  | 21 => ⟨S_, .f32⟩
  | 22 => ⟨S500000, .f32⟩
  | 23 => ⟨S_, .f32⟩
  | 24 => ⟨S100000, .f32⟩
  | 25 => ⟨S500000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000, .f32⟩
  | 53 => ⟨S500000, .f32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x256, .f32⟩
  | 63 => ⟨S500000x1, .f32⟩
  | 64 => ⟨S500000x256, .f32⟩
  | 65 => ⟨S500000x256, .f32⟩
  | 66 => ⟨S_, .f32⟩
  | 67 => ⟨S100000x256, .f32⟩
  | 68 => ⟨S500000x1, .i32⟩
  | 69 => ⟨S100000x256, .f32⟩
  | 70 => ⟨S1x256, .f32⟩
  | 71 => ⟨S100000x256, .f32⟩
  | 72 => ⟨S100000x256, .f32⟩
  | 73 => ⟨S_, .f32⟩
  | 74 => ⟨S100000x256, .f32⟩
  | 75 => ⟨S100000x256, .f32⟩
  | 76 => ⟨S100000x256, .f32⟩
  | 77 => ⟨S100000, .i32⟩
  | 78 => ⟨S500000, .i32⟩
  | 79 => ⟨S500000, .i32⟩
  | 80 => ⟨S_, .f32⟩
  | 81 => ⟨S500000, .f32⟩
  | 82 => ⟨S_, .f32⟩
  | 83 => ⟨S100000, .f32⟩
  | 84 => ⟨S500000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000, .f32⟩
  | 112 => ⟨S500000, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x256, .f32⟩
  | 122 => ⟨S500000x1, .f32⟩
  | 123 => ⟨S500000x256, .f32⟩
  | 124 => ⟨S500000x256, .f32⟩
  | 125 => ⟨S_, .f32⟩
  | 126 => ⟨S100000x256, .f32⟩
  | 127 => ⟨S500000x1, .i32⟩
  | _ => ⟨S100000x69, .f32⟩

abbrev hbmTy0_1 (i : Nat) : BufTy := match i % 128 with
  | 0 => ⟨S100000x256, .f32⟩
  | 1 => ⟨S1x256, .f32⟩
  | 2 => ⟨S100000x256, .f32⟩
  | 3 => ⟨S100000x256, .f32⟩
  | 4 => ⟨S_, .f32⟩
  | 5 => ⟨S100000x256, .f32⟩
  | 6 => ⟨S100000x256, .f32⟩
  | 7 => ⟨S100000x256, .f32⟩
  | 8 => ⟨S100000, .i32⟩
  | 9 => ⟨S500000, .i32⟩
  | 10 => ⟨S500000, .i32⟩
  | 11 => ⟨S_, .f32⟩
  | 12 => ⟨S500000, .f32⟩
  | 13 => ⟨S_, .f32⟩
  | 14 => ⟨S100000, .f32⟩
  | 15 => ⟨S500000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000, .f32⟩
  | 43 => ⟨S500000, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x256, .f32⟩
  | 53 => ⟨S500000x1, .f32⟩
  | 54 => ⟨S500000x256, .f32⟩
  | 55 => ⟨S500000x256, .f32⟩
  | 56 => ⟨S_, .f32⟩
  | 57 => ⟨S100000x256, .f32⟩
  | 58 => ⟨S500000x1, .i32⟩
  | 59 => ⟨S100000x256, .f32⟩
  | 60 => ⟨S1x256, .f32⟩
  | 61 => ⟨S100000x256, .f32⟩
  | 62 => ⟨S100000x256, .f32⟩
  | 63 => ⟨S_, .f32⟩
  | 64 => ⟨S100000x256, .f32⟩
  | 65 => ⟨S100000x256, .f32⟩
  | 66 => ⟨S100000x256, .f32⟩
  | 67 => ⟨S100000, .i32⟩
  | 68 => ⟨S500000, .i32⟩
  | 69 => ⟨S500000, .i32⟩
  | 70 => ⟨S_, .f32⟩
  | 71 => ⟨S500000, .f32⟩
  | 72 => ⟨S_, .f32⟩
  | 73 => ⟨S100000, .f32⟩
  | 74 => ⟨S500000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000, .f32⟩
  | 102 => ⟨S500000, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x256, .f32⟩
  | 112 => ⟨S500000x1, .f32⟩
  | 113 => ⟨S500000x256, .f32⟩
  | 114 => ⟨S500000x256, .f32⟩
  | 115 => ⟨S_, .f32⟩
  | 116 => ⟨S100000x256, .f32⟩
  | 117 => ⟨S500000x1, .i32⟩
  | 118 => ⟨S100000x256, .f32⟩
  | 119 => ⟨S1x256, .f32⟩
  | 120 => ⟨S100000x256, .f32⟩
  | 121 => ⟨S100000x256, .f32⟩
  | 122 => ⟨S_, .f32⟩
  | 123 => ⟨S4096x256, .f32⟩
  | 124 => ⟨S100000x1, .i32⟩
  | 125 => ⟨S4096x256, .f32⟩
  | 126 => ⟨S_, .f32⟩
  | 127 => ⟨S100000, .f32⟩
  | _ => ⟨S100000x69, .f32⟩

abbrev hbmTy0_2 (i : Nat) : BufTy := match i % 128 with
  | 0 => ⟨S_, .f32⟩
  | 1 => ⟨S4096, .f32⟩
  | 2 => ⟨S100000x1, .i32⟩
  | 3 => ⟨S4096, .f32⟩
  | 4 => ⟨S_, .f32⟩
  | 5 => ⟨S4096, .f32⟩
  | 6 => ⟨S4096, .f32⟩
  | 7 => ⟨S4096x1, .f32⟩
  | 8 => ⟨S4096x256, .f32⟩
  | 9 => ⟨S4096x256, .f32⟩
  | 10 => ⟨S4096x2, .f32⟩
  | 11 => ⟨S1x2, .f32⟩
  | 12 => ⟨S4096x2, .f32⟩
  | 13 => ⟨S4096x2, .f32⟩
  | _ => ⟨S100000x69, .f32⟩

abbrev hbmTy (i : Nat) : BufTy := match i / 128 with
  | 0 => hbmTy0_0 i
  | 1 => hbmTy0_1 i
  | 2 => hbmTy0_2 i
  | _ => ⟨S100000x69, .f32⟩

abbrev bufTy : (tb : Table) → Fin (tcTables nBuf tb) → BufTy
  | .hbm, ⟨i, _⟩ => hbmTy i
  | .local _ .vmem, ⟨0, _⟩ => ⟨S4000x69, .f32⟩
  | .local _ .vmem, ⟨1, _⟩ => ⟨S4000x69, .f32⟩
  | .local _ .vmem, ⟨2, _⟩ => ⟨S69x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S256x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S256x256, .f32⟩
  | .local _ .vmem, ⟨13, _⟩ => ⟨S4000x256, .f32⟩
  | .local _ .vmem, ⟨14, _⟩ => ⟨S4000x256, .f32⟩
  | .local _ .vmem, ⟨15, _⟩ => ⟨S4000x256, .f32⟩
  | .local _ .vmem, ⟨16, _⟩ => ⟨S4000x256, .f32⟩
  | .local _ .vmem, ⟨17, _⟩ => ⟨S256x256, .f32⟩
  | .local _ .vmem, ⟨18, _⟩ => ⟨S4000x256, .f32⟩
  | .local _ .vmem, ⟨19, _⟩ => ⟨S4000x256, .f32⟩
  | .local _ .vmem, ⟨20, _⟩ => ⟨S4096x256, .f32⟩
  | .local _ .vmem, ⟨21, _⟩ => ⟨S256x2, .f32⟩
  | .local _ .vmem, ⟨22, _⟩ => ⟨S4096x2, .f32⟩
  | _, _ => ⟨S100000x69, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call3_cst : Ref sig .tc := ⟨.hbm, 132, rfl⟩
abbrev main_call3_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_call4_v0 : Ref sig .tc := ⟨.hbm, 150, rfl⟩
abbrev main_call4_v1 : Ref sig .tc := ⟨.hbm, 151, rfl⟩
abbrev main_v103 : Ref sig .tc := ⟨.hbm, 152, rfl⟩
abbrev main_c_24 : Ref sig .tc := ⟨.hbm, 153, rfl⟩
abbrev main_v104 : Ref sig .tc := ⟨.hbm, 154, rfl⟩
abbrev main_v105 : Ref sig .tc := ⟨.hbm, 155, rfl⟩
abbrev main_c_25 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_26 : Ref sig .tc := ⟨.hbm, 162, rfl⟩
abbrev main_v111 : Ref sig .tc := ⟨.hbm, 163, rfl⟩
abbrev main_v112 : Ref sig .tc := ⟨.hbm, 164, rfl⟩
abbrev main_c_27 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_28 : Ref sig .tc := ⟨.hbm, 172, rfl⟩
abbrev main_v119 : Ref sig .tc := ⟨.hbm, 173, rfl⟩
abbrev main_v120 : Ref sig .tc := ⟨.hbm, 174, rfl⟩
abbrev main_c_29 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_call5_cst : Ref sig .tc := ⟨.hbm, 191, rfl⟩
abbrev main_call5_v0 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_31 : Ref sig .tc := ⟨.hbm, 198, rfl⟩
abbrev main_v140 : Ref sig .tc := ⟨.hbm, 199, rfl⟩
abbrev main_cst_32 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_33 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_cst_34 : Ref sig .tc := ⟨.hbm, 208, rfl⟩
abbrev main_call6_v0 : Ref sig .tc := ⟨.hbm, 209, rfl⟩
abbrev main_call6_v1 : Ref sig .tc := ⟨.hbm, 210, rfl⟩
abbrev main_v147 : Ref sig .tc := ⟨.hbm, 211, rfl⟩
abbrev main_c_35 : Ref sig .tc := ⟨.hbm, 212, rfl⟩
abbrev main_v148 : Ref sig .tc := ⟨.hbm, 213, rfl⟩
abbrev main_v149 : Ref sig .tc := ⟨.hbm, 214, rfl⟩
abbrev main_c_36 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_c_37 : Ref sig .tc := ⟨.hbm, 221, rfl⟩
abbrev main_v155 : Ref sig .tc := ⟨.hbm, 222, rfl⟩
abbrev main_v156 : Ref sig .tc := ⟨.hbm, 223, rfl⟩
abbrev main_c_38 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_c_39 : Ref sig .tc := ⟨.hbm, 231, rfl⟩
abbrev main_v163 : Ref sig .tc := ⟨.hbm, 232, rfl⟩
abbrev main_v164 : Ref sig .tc := ⟨.hbm, 233, rfl⟩
abbrev main_c_40 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_cst_41 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_cst_42 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_cst_43 : Ref sig .tc := ⟨.hbm, 254, rfl⟩
abbrev main_v182 : Ref sig .tc := ⟨.hbm, 255, rfl⟩
abbrev main_cst_44 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_cst_45 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x69 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S69x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S4096x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S256x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S4096x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  inb_S4000x69_S4000x69_0_0 : ∀ a, (![0, 0] : Fin 2 → Nat) a + S4000x69.size a ≤ S4000x69.size a
  h_S4000x69 : 0 < S4000x69.numel
  bitsLt_bf16_f32 : FTy.bits .bf16 < FTy.bits .f32
  inb_S69x256_S69x256_0_0 : ∀ a, (![0, 0] : Fin 2 → Nat) a + S69x256.size a ≤ S69x256.size a
  h_S69x256 : 0 < S69x256.numel
  inb_S4000x256_S4000x256_0_0 : ∀ a, (![0, 0] : Fin 2 → Nat) a + S4000x256.size a ≤ S4000x256.size a
  h_S4000x256 : 0 < S4000x256.numel
  concatenates_S400000_S100000_S500000_d0 : Shape.Concatenates [S400000, S100000] S500000 0
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  bcast_S_S4096x256 : S_.BroadcastsInDim S4096x256 (![] : Fin 0 → Fin S4096x256.rank)
  bcast_S100000_S100000x1_0 : S100000.BroadcastsInDim S100000x1 (![0] : Fin 1 → Fin S100000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x2_S256x2_0_0 : ∀ a, (![0, 0] : Fin 2 → Nat) a + S256x2.size a ≤ S256x2.size a
  h_S256x2 : 0 < S256x2.numel
  inb_S4096x2_S4096x2_0_0 : ∀ a, (![0, 0] : Fin 2 → Nat) a + S4096x2.size a ≤ S4096x2.size a
  h_S4096x2 : 0 < S4096x2.numel
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S4000x69_S69x256_S4000x256_1_0_0_1_n_n_wf : DotDims.WF S4000x69 S69x256 S4000x256 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S4000x256_S256x256_S4000x256_1_0_0_1_n_n_wf : DotDims.WF S4000x256 S256x256 S4000x256 [1] [0] [0] [1] [] []
  scatter_S4096x256_S100000x1_S100000x256_1_0_0_1_wf : ScatterDims.WF S4096x256 S100000x1 S100000x256 [1] [0] [0] 1
  scatter_S4096_S100000x1_S100000_n_0_0_1_wf : ScatterDims.WF S4096 S100000x1 S100000 [] [0] [0] 1
  dot_S4096x256_S256x2_S4096x2_1_0_0_1_n_n_wf : DotDims.WF S4096x256 S256x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x69.size a ≤ S100000x69.size a
  hwx0_0 : ∀ i : grid0.Coords, EltTy.bits .f32 = 32 ∨ (Rect.block (s := S100000x69) S4000x69.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S69x256.size a ≤ S69x256.size a
  hwx0_1 : ∀ i : grid0.Coords, EltTy.bits .f32 = 32 ∨ (Rect.block (s := S69x256) S69x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .f32 = 32 ∨ (Rect.block (s := S100000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .f32 = 32 ∨ (Rect.block (s := S100000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .f32 = 32 ∨ (Rect.block (s := S100000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x256.size a ≤ S100000x256.size a
  hwx2_2 : ∀ i : grid2.Coords, EltTy.bits .f32 = 32 ∨ (Rect.block (s := S100000x256) S4000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S100000x256.size a
  hwx3_0 : ∀ i : grid3.Coords, EltTy.bits .f32 = 32 ∨ (Rect.block (s := S100000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x256.size a ≤ S100000x256.size a
  hwx3_2 : ∀ i : grid3.Coords, EltTy.bits .f32 = 32 ∨ (Rect.block (s := S100000x256) S4000x256.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S4096x256.size a ≤ S4096x256.size a
  hwx4_0 : ∀ i : grid4.Coords, EltTy.bits .f32 = 32 ∨ (Rect.block (s := S4096x256) S4096x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x2.size a ≤ S256x2.size a
  hwx4_1 : ∀ i : grid4.Coords, EltTy.bits .f32 = 32 ∨ (Rect.block (s := S256x2) S256x2.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S4096x2.size a ≤ S4096x2.size a
  hwx4_2 : ∀ i : grid4.Coords, EltTy.bits .f32 = 32 ∨ (Rect.block (s := S4096x2) S4096x2.size (cc4_transform_2 i) (hinb4_2 i)).WholeWords (EltTy.packing .f32)

variable [Facts₀]

def dot_S4000x69_S69x256_S4000x256_1_0_0_1_n_n : DotDims S4000x69 S69x256 S4000x256 where
  lhsContracting := [1]
  rhsContracting := [0]
  lhsNonContracting := [0]
  rhsNonContracting := [1]
  lhsBatch := []
  rhsBatch := []
  wf := dot_S4000x69_S69x256_S4000x256_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S4096x256_S100000x1_S100000x256_1_0_0_1 : ScatterDims S4096x256 S100000x1 S100000x256 where
  updateWindowDims := [1]
  insertedWindowDims := [0]
  scatterDimsToOperandDims := [0]
  indexVectorDim := 1
  wf := scatter_S4096x256_S100000x1_S100000x256_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

abbrev win0_0 : Pipeline.Window sig grid0 :=
  Pipeline.Window.ofSpec (Memref.whole main_arg0) S4000x69.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S69x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v91) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v92) S4000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v135) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v136) S4000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v190) S4096x256.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v191) S4096x2.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x69 : Shape := ⟨2, ![100000, 69]⟩
abbrev S2x400000 : Shape := ⟨2, ![2, 400000]⟩
abbrev S100000 : Shape := ⟨1, ![100000]⟩
abbrev S69x256 : Shape := ⟨2, ![69, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x400000 : Shape := ⟨2, ![1, 400000]⟩
abbrev S400000 : Shape := ⟨1, ![400000]⟩
abbrev S100000x256 : Shape := ⟨2, ![100000, 256]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩
abbrev S4096x256 : Shape := ⟨2, ![4096, 256]⟩
abbrev S100000x1 : Shape := ⟨2, ![100000, 1]⟩
abbrev S4096 : Shape := ⟨1, ![4096]⟩
abbrev S4096x1 : Shape := ⟨2, ![4096, 1]⟩
abbrev S4096x2 : Shape := ⟨2, ![4096, 2]⟩
abbrev S1x2 : Shape := ⟨2, ![1, 2]⟩

abbrev nBuf : Space → Nat
  | .hbm => 270
  | .vmem => 0
  | .smem => 0
  | _ => 0

abbrev hbmTy0_0 (i : Nat) : BufTy := match i % 128 with
  | 0 => ⟨S100000x69, .f32⟩
  | 1 => ⟨S2x400000, .i32⟩
  | 2 => ⟨S100000, .i32⟩
  | 3 => ⟨S69x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x2, .f32⟩
  | 12 => ⟨S2, .f32⟩
  | 13 => ⟨S1x400000, .i32⟩
  | 14 => ⟨S400000, .i32⟩
  | 15 => ⟨S1x400000, .i32⟩
  | 16 => ⟨S400000, .i32⟩
  | 17 => ⟨S100000x256, .f32⟩
  | 18 => ⟨S100000, .i32⟩
  | 19 => ⟨S500000, .i32⟩
  | 20 => ⟨S500000, .i32⟩
  | 21 => ⟨S_, .f32⟩
  | 22 => ⟨S500000, .f32⟩
  | 23 => ⟨S_, .f32⟩
  | 24 => ⟨S100000, .f32⟩
  | 25 => ⟨S500000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000, .f32⟩
  | 53 => ⟨S500000, .f32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x256, .f32⟩
  | 63 => ⟨S500000x1, .f32⟩
  | 64 => ⟨S500000x256, .f32⟩
  | 65 => ⟨S500000x256, .f32⟩
  | 66 => ⟨S_, .f32⟩
  | 67 => ⟨S100000x256, .f32⟩
  | 68 => ⟨S500000x1, .i32⟩
  | 69 => ⟨S100000x256, .f32⟩
  | 70 => ⟨S1x256, .f32⟩
  | 71 => ⟨S100000x256, .f32⟩
  | 72 => ⟨S100000x256, .f32⟩
  | 73 => ⟨S_, .f32⟩
  | 74 => ⟨S100000x256, .f32⟩
  | 75 => ⟨S100000x256, .f32⟩
  | 76 => ⟨S100000x256, .f32⟩
  | 77 => ⟨S100000, .i32⟩
  | 78 => ⟨S500000, .i32⟩
  | 79 => ⟨S500000, .i32⟩
  | 80 => ⟨S_, .f32⟩
  | 81 => ⟨S500000, .f32⟩
  | 82 => ⟨S_, .f32⟩
  | 83 => ⟨S100000, .f32⟩
  | 84 => ⟨S500000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000, .f32⟩
  | 112 => ⟨S500000, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x256, .f32⟩
  | 122 => ⟨S500000x1, .f32⟩
  | 123 => ⟨S500000x256, .f32⟩
  | 124 => ⟨S500000x256, .f32⟩
  | 125 => ⟨S_, .f32⟩
  | 126 => ⟨S100000x256, .f32⟩
  | 127 => ⟨S500000x1, .i32⟩
  | _ => ⟨S100000x69, .f32⟩

abbrev hbmTy0_1 (i : Nat) : BufTy := match i % 128 with
  | 0 => ⟨S100000x256, .f32⟩
  | 1 => ⟨S1x256, .f32⟩
  | 2 => ⟨S100000x256, .f32⟩
  | 3 => ⟨S100000x256, .f32⟩
  | 4 => ⟨S_, .f32⟩
  | 5 => ⟨S100000x256, .f32⟩
  | 6 => ⟨S100000x256, .f32⟩
  | 7 => ⟨S100000x256, .f32⟩
  | 8 => ⟨S100000, .i32⟩
  | 9 => ⟨S500000, .i32⟩
  | 10 => ⟨S500000, .i32⟩
  | 11 => ⟨S_, .f32⟩
  | 12 => ⟨S500000, .f32⟩
  | 13 => ⟨S_, .f32⟩
  | 14 => ⟨S100000, .f32⟩
  | 15 => ⟨S500000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000, .f32⟩
  | 43 => ⟨S500000, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x256, .f32⟩
  | 53 => ⟨S500000x1, .f32⟩
  | 54 => ⟨S500000x256, .f32⟩
  | 55 => ⟨S500000x256, .f32⟩
  | 56 => ⟨S_, .f32⟩
  | 57 => ⟨S100000x256, .f32⟩
  | 58 => ⟨S500000x1, .i32⟩
  | 59 => ⟨S100000x256, .f32⟩
  | 60 => ⟨S1x256, .f32⟩
  | 61 => ⟨S100000x256, .f32⟩
  | 62 => ⟨S100000x256, .f32⟩
  | 63 => ⟨S_, .f32⟩
  | 64 => ⟨S100000x256, .f32⟩
  | 65 => ⟨S100000x256, .f32⟩
  | 66 => ⟨S100000x256, .f32⟩
  | 67 => ⟨S100000, .i32⟩
  | 68 => ⟨S500000, .i32⟩
  | 69 => ⟨S500000, .i32⟩
  | 70 => ⟨S_, .f32⟩
  | 71 => ⟨S500000, .f32⟩
  | 72 => ⟨S_, .f32⟩
  | 73 => ⟨S100000, .f32⟩
  | 74 => ⟨S500000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000, .f32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000, .f32⟩
  | 102 => ⟨S500000, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x256, .f32⟩
  | 112 => ⟨S500000x1, .f32⟩
  | 113 => ⟨S500000x256, .f32⟩
  | 114 => ⟨S500000x256, .f32⟩
  | 115 => ⟨S_, .f32⟩
  | 116 => ⟨S100000x256, .f32⟩
  | 117 => ⟨S500000x1, .i32⟩
  | 118 => ⟨S100000x256, .f32⟩
  | 119 => ⟨S1x256, .f32⟩
  | 120 => ⟨S100000x256, .f32⟩
  | 121 => ⟨S100000x256, .f32⟩
  | 122 => ⟨S_, .f32⟩
  | 123 => ⟨S4096x256, .f32⟩
  | 124 => ⟨S100000x1, .i32⟩
  | 125 => ⟨S4096x256, .f32⟩
  | 126 => ⟨S_, .f32⟩
  | 127 => ⟨S100000, .f32⟩
  | _ => ⟨S100000x69, .f32⟩

abbrev hbmTy0_2 (i : Nat) : BufTy := match i % 128 with
  | 0 => ⟨S_, .f32⟩
  | 1 => ⟨S4096, .f32⟩
  | 2 => ⟨S100000x1, .i32⟩
  | 3 => ⟨S4096, .f32⟩
  | 4 => ⟨S_, .f32⟩
  | 5 => ⟨S4096, .f32⟩
  | 6 => ⟨S4096, .f32⟩
  | 7 => ⟨S4096x1, .f32⟩
  | 8 => ⟨S4096x256, .f32⟩
  | 9 => ⟨S4096x256, .f32⟩
  | 10 => ⟨S4096x2, .f32⟩
  | 11 => ⟨S1x2, .f32⟩
  | 12 => ⟨S4096x2, .f32⟩
  | 13 => ⟨S4096x2, .f32⟩
  | _ => ⟨S100000x69, .f32⟩

abbrev hbmTy (i : Nat) : BufTy := match i / 128 with
  | 0 => hbmTy0_0 i
  | 1 => hbmTy0_1 i
  | 2 => hbmTy0_2 i
  | _ => ⟨S100000x69, .f32⟩

abbrev bufTy : (tb : Table) → Fin (tcTables nBuf tb) → BufTy
  | .hbm, ⟨i, _⟩ => hbmTy i
  | _, _ => ⟨S100000x69, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call3_cst : Ref sig .tc := ⟨.hbm, 132, rfl⟩
abbrev main_call3_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_call4_v0 : Ref sig .tc := ⟨.hbm, 150, rfl⟩
abbrev main_call4_v1 : Ref sig .tc := ⟨.hbm, 151, rfl⟩
abbrev main_v103 : Ref sig .tc := ⟨.hbm, 152, rfl⟩
abbrev main_c_24 : Ref sig .tc := ⟨.hbm, 153, rfl⟩
abbrev main_v104 : Ref sig .tc := ⟨.hbm, 154, rfl⟩
abbrev main_v105 : Ref sig .tc := ⟨.hbm, 155, rfl⟩
abbrev main_c_25 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_26 : Ref sig .tc := ⟨.hbm, 162, rfl⟩
abbrev main_v111 : Ref sig .tc := ⟨.hbm, 163, rfl⟩
abbrev main_v112 : Ref sig .tc := ⟨.hbm, 164, rfl⟩
abbrev main_c_27 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_28 : Ref sig .tc := ⟨.hbm, 172, rfl⟩
abbrev main_v119 : Ref sig .tc := ⟨.hbm, 173, rfl⟩
abbrev main_v120 : Ref sig .tc := ⟨.hbm, 174, rfl⟩
abbrev main_c_29 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_call5_cst : Ref sig .tc := ⟨.hbm, 191, rfl⟩
abbrev main_call5_v0 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_31 : Ref sig .tc := ⟨.hbm, 198, rfl⟩
abbrev main_v140 : Ref sig .tc := ⟨.hbm, 199, rfl⟩
abbrev main_cst_32 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_33 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_cst_34 : Ref sig .tc := ⟨.hbm, 208, rfl⟩
abbrev main_call6_v0 : Ref sig .tc := ⟨.hbm, 209, rfl⟩
abbrev main_call6_v1 : Ref sig .tc := ⟨.hbm, 210, rfl⟩
abbrev main_v147 : Ref sig .tc := ⟨.hbm, 211, rfl⟩
abbrev main_c_35 : Ref sig .tc := ⟨.hbm, 212, rfl⟩
abbrev main_v148 : Ref sig .tc := ⟨.hbm, 213, rfl⟩
abbrev main_v149 : Ref sig .tc := ⟨.hbm, 214, rfl⟩
abbrev main_c_36 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_c_37 : Ref sig .tc := ⟨.hbm, 221, rfl⟩
abbrev main_v155 : Ref sig .tc := ⟨.hbm, 222, rfl⟩
abbrev main_v156 : Ref sig .tc := ⟨.hbm, 223, rfl⟩
abbrev main_c_38 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_c_39 : Ref sig .tc := ⟨.hbm, 231, rfl⟩
abbrev main_v163 : Ref sig .tc := ⟨.hbm, 232, rfl⟩
abbrev main_v164 : Ref sig .tc := ⟨.hbm, 233, rfl⟩
abbrev main_c_40 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_cst_41 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_cst_42 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_cst_43 : Ref sig .tc := ⟨.hbm, 254, rfl⟩
abbrev main_v182 : Ref sig .tc := ⟨.hbm, 255, rfl⟩
abbrev main_cst_44 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_cst_45 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S100000_S500000_d0 : Shape.Concatenates [S400000, S100000] S500000 0
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S4096x256 : S_.BroadcastsInDim S4096x256 (![] : Fin 0 → Fin S4096x256.rank)
  bcast_S100000_S100000x1_0 : S100000.BroadcastsInDim S100000x1 (![0] : Fin 1 → Fin S100000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  dot_S100000x69_S69x256_S100000x256_1_0_0_1_n_n_wf : DotDims.WF S100000x69 S69x256 S100000x256 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x256_S100000x256_1_0_0_1_n_n_wf : DotDims.WF S100000x256 S256x256 S100000x256 [1] [0] [0] [1] [] []
  scatter_S4096x256_S100000x1_S100000x256_1_0_0_1_wf : ScatterDims.WF S4096x256 S100000x1 S100000x256 [1] [0] [0] 1
  scatter_S4096_S100000x1_S100000_n_0_0_1_wf : ScatterDims.WF S4096 S100000x1 S100000 [] [0] [0] 1
  dot_S4096x256_S256x2_S4096x2_1_0_0_1_n_n_wf : DotDims.WF S4096x256 S256x2 S4096x2 [1] [0] [0] [1] [] []

variable [Facts₀]

def dot_S100000x69_S69x256_S100000x256_1_0_0_1_n_n : DotDims S100000x69 S69x256 S100000x256 where
  lhsContracting := [1]
  rhsContracting := [0]
  lhsNonContracting := [0]
  rhsNonContracting := [1]
  lhsBatch := []
  rhsBatch := []
  wf := dot_S100000x69_S69x256_S100000x256_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S4096x256_S100000x1_S100000x256_1_0_0_1 : ScatterDims S4096x256 S100000x1 S100000x256 where
  updateWindowDims := [1]
  insertedWindowDims := [0]
  scatterDimsToOperandDims := [0]
  indexVectorDim := 1
  wf := scatter_S4096x256_S100000x1_S100000x256_1_0_0_1_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

class Facts : Prop extends Facts₀ where

variable [Facts]
-- ==== Proof.KernelRun.lean ====
/-
  The idealized program's run with its result buffer read.

  The program is five Pallas matrix products among stretches of host operations. Running it from a launch memory `m`
  leaves every buffer at the contents obtained by folding, in program order, each host stretch (every operation rewrites
  its result buffer as its function of its operand buffers) and each Pallas call (its three arrays end at what its
  write-backs leave, every other buffer as it was). The frame claim keeps of this only that the thirteen argument buffers
  end as launched; the value claim also needs the result buffer, so here the same run is stated with the result
  buffer at the fold's final contents beside the unchanged arguments.
-/
import proofs.«119335_j609885356937_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates without a fault; the result buffer ends at the last
    boundary's contents of the fold through the program, and every argument buffer ends as launched. -/
theorem run_value : θ_run defs (onTc (τ := τ) (main (F := F))) ⟨m, fun _ => 0, ρ⟩ (fun r => ∀ c : Dev nD,
      r.2.mem ((c.tc : Thread nD τ).loc main_v194) = W22 m ρ c (Proc.devRef .tc main_v194)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v194 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c)⟩)

end Cert.KernelIdeal.Run

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.MatmulAt.lean ====
/-
  One row block of a matrix product is the matching rows of the whole product, over the extended reals.

  For an `[M, K]` matrix `X` and a `[K, N]` matrix `W`, entry `(P, e)` of the host's product is
  `∑ f, X (P, f) * W (f, e)`. A block of `B` rows of `X` multiplied by `W` into the zero matrix has at `(r, e)` the sum
  `∑ f, xb (r, f) * wb (f, e)`; when row `r` of the block is row `P` of `X` and the right operand is `W`, the two sums have
  the same terms. No law beyond rewriting the summands is used, so nothing needs the entries to be finite.
-/
import proofs.«119335_j609885356937_1_alg».proof.Proof.LibMatmul

open scoped BigOperators

noncomputable section

namespace Cert.GcnMatmul

open Idealize.ShloMosaic Idealize.ShloMosaic.ValueIdx

variable {B M K N : ℕ}

/-- The host's product of an `[M, K]` by a `[K, N]` matrix, at `(p, e)`: the sum over the contracted coordinate. -/
theorem dotGeneral_plain_apply {φ₁ φ₂ : FTy} (prec : Option ContractPrecision) (L : FVec Ideal ⟨2, ![M, K]⟩ φ₁)
    (R : FVec Ideal ⟨2, ![K, N]⟩ φ₂) (p : Fin M) (e : Fin N) :
    Host.dotGeneral (F := Ideal) (DotDims.plain M K N) prec L R (ix2 p e) = ∑ f : Fin K, L (ix2 p f) * R (ix2 f e) :=
  (Ideal.dotGeneral_apply (DotDims.plain M K N) prec .single L R (ix2 p e)).trans (Cert.Lib.Matmul.plain_sum L R p e)

/-- A block of rows times the whole right operand, into zero, at `(r, e)`, is the whole product at the block row's
    place `(P, e)`: `hx` says row `r` of the block is row `P` of `X`, `hw` that the right operands agree on column `e`. -/
theorem block_product {φ₁ φ₂ : FTy} (prec prec' : Option ContractPrecision)
    (X : FVec Ideal ⟨2, ![M, K]⟩ φ₁) (W : FVec Ideal ⟨2, ![K, N]⟩ φ₂)
    (xb : FVec Ideal ⟨2, ![B, K]⟩ φ₁) (wb : FVec Ideal ⟨2, ![K, N]⟩ φ₂) (r : Fin B) (e : Fin N) (P : Fin M)
    (hx : ∀ f : Fin K, xb (ix2 r f) = X (ix2 P f)) (hw : ∀ f : Fin K, wb (ix2 f e) = W (ix2 f e)) :
    matmul (DotDims.plain B K N) prec xb wb (constant ⟨2, ![B, N]⟩ .f32 0x00000000#32) (ix2 r e)
      = Host.dotGeneral (F := Ideal) (DotDims.plain M K N) prec' X W (ix2 P e) := by
  rw [Cert.Lib.Matmul.matmul_plain_zero_apply, dotGeneral_plain_apply]
  exact Finset.sum_congr rfl fun f _ => by rw [hx f, hw f]

end Cert.GcnMatmul

end
-- ==== Proof.Region0.lean ====
/-
  Pallas call 0 of the program: `main_v4 = main_arg0 · main_arg3`, a `[100000, 69]` matrix times a `[69, 256]` matrix,
  computed 4000 rows at a time over 25 grid points.

  At point `t` the body loads rows `4000·t … 4000·t + 3999` of the left operand and the whole right operand, narrows both to
  bf16 (the identity on extended reals), multiplies them into a zero accumulator and stores the `[4000, 256]` result, which
  is written back to the same rows of the output. Entry `(r, e)` of that block is `∑ f, X (4000·t + r, f) * W (f, e)`, which is
  entry `(4000·t + r, e)` of the whole product: every point writes its own rows of ONE array, the product, and the 25
  row blocks cover all 100000 rows. So the output array ends holding the host's product of the two arrays as the call
  finds them, and the two operand arrays are not written.
-/
import proofs.«119335_j609885356937_1_alg».proof.Proof.Gen.KernelIdeal.Frame
import proofs.«119335_j609885356937_1_alg».proof.Proof.MatmulAt
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

-- the buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The whole product of a `[100000, 69]` by a `[69, 256]` array, as the host computes it. -/
abbrev prod (X : Vec Ideal S100000x69 .f32) (W : Vec Ideal S69x256 .f32) : Vec Ideal S100000x256 .f32 :=
  Host.dotGeneral (F := Ideal) (φ₁ := .f32) (φ₂ := .f32) (DotDims.plain 100000 69 256) none X W

/-- What the body stores, at an entry `y` of the block: when row `y 0` of the left block is row `k 0` of `X`, the right block is
    `W` on column `y 1`, and `k` is in that column, it is the whole product's entry `k`. -/
theorem pay_at (x0 : Vec Ideal S4000x69 .f32) (x1 : Vec Ideal S69x256 .f32)
    (X : Vec Ideal S100000x69 .f32) (W : Vec Ideal S69x256 .f32) (y : S4000x256.Idx) (k : S100000x256.Idx)
    (hk : (k 1).val = (y 1).val)
    (hx : ∀ f : Fin 69, x0 (ix2 (y 0) f) = X (ix2 (k 0) f))
    (hw : ∀ f : Fin 69, x1 (ix2 f (y 1)) = W (ix2 f (y 1))) :
    k0_pay1 x0 x1 y = prod X W k := by
  obtain ⟨r, e, rfl⟩ : ∃ (r : Fin 4000) (e : Fin 256), y = ix2 r e := ⟨y 0, y 1, eq_ix2 y⟩
  obtain ⟨P, e', rfl⟩ : ∃ (P : Fin 100000) (e' : Fin 256), k = ix2 P e' := ⟨k 0, k 1, eq_ix2 k⟩
  obtain rfl : e' = e := Fin.ext hk
  unfold k0_pay1
  first | rw [shapeCast_self] | skip
  exact Cert.GcnMatmul.block_product none none X W x0 x1 r e' P hx hw

/-- The printed index maps, decided over the grid: the left operand's and the output's blocks move down the rows with the
    point, the right operand's block is the whole array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `4000·t … 4000·t + 3999` of its array. -/
theorem iblk_x (c : Dev nD) (t : Fin cfg0.N) (x : S4000x69.Idx) (k : S100000x69.Idx)
    (hk0 : (k 0).val = t.val * 4000 + (x 0).val) (hk1 : (k 1).val = (x 1).val) :
    (iblk0 V c 0 t : Vec Ideal S4000x69 .f32) x = (V c main_arg0 : Vec Ideal S100000x69 .f32) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 4000 + 1 * (x 0).val = (k 0).val; rw [e0, hk0]; omega
  | ⟨1, _⟩ => show win0_0.index t 1 * 69 + 1 * (x 1).val = (k 1).val; rw [e1, hk1]; omega

/-- The right operand's block at every point is its whole array. -/
theorem iblk_w (c : Dev nD) (t : Fin cfg0.N) (x : S69x256.Idx) :
    (iblk0 V c 1 t : Vec Ideal S69x256 .f32) x = (V c main_arg3 : Vec Ideal S69x256 .f32) x := by
  obtain ⟨-, -, e2, e3, -, -⟩ := idx_facts t
  unfold iblk0
  rw [View.read_apply]
  show V c main_arg3 _ = V c main_arg3 _
  congr 1
  funext a
  apply Fin.ext
  match a with
  | ⟨0, _⟩ => show win0_1.index t 0 * 69 + 1 * (x 0).val = (x 0).val; rw [e2]; omega
  | ⟨1, _⟩ => show win0_1.index t 1 * 256 + 1 * (x 1).val = (x 1).val; rw [e3]; omega

/-- What point `t` writes back is block `t` of the whole product of the arrays as the call finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S4000x69) hz, View.ld_unit_zero (S := S69x256) hz]
  obtain ⟨-, -, -, -, e4, e5⟩ := idx_facts t
  funext y
  show k0_pay1 (iblk0 V c 0 t) (iblk0 V c 1 t) y = prod (V c main_arg0) (V c main_arg3) (((cfg0.win 2).blk t).view.emb y)
  refine pay_at (iblk0 V c 0 t) (iblk0 V c 1 t) (V c main_arg0) (V c main_arg3) y (((cfg0.win 2).blk t).view.emb y) ?_ (fun f => ?_) (fun f => ?_)
  · show win0_2.index t 1 * 256 + 1 * (y 1).val = (y 1).val
    rw [e5]; omega
  · refine iblk_x V c t _ _ ?_ rfl
    show win0_2.index t 0 * 4000 + 1 * (y 0).val = t.val * 4000 + (y 0).val
    rw [e4]; omega
  · exact iblk_w V c t _

/-- An index of the output array is in point `t`'s block iff each coordinate is in the block's range on its axis. -/
theorem mem_blk (t : Fin cfg0.N) (i : S100000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v4).slice (win0_2.rect t)).set ↔ _
  rw [View.set_slice_whole, Rect.mem_set_unit]
  exact Iff.rfl

/-- Row `r` of the output is in the block of point `r / 4000`: the row blocks cover the array. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 25 := N_0
  have ht : (i 0).val / 4000 < cfg0.N := by rw [hN]; omega
  obtain ⟨-, -, -, -, e4, e5⟩ := idx_facts ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ 0 * 4000 ≤ (i 0).val ∧ (i 0).val < win0_2.index ⟨(i 0).val / 4000, ht⟩ 0 * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ 1 * 256 ≤ (i 1).val ∧ (i 1).val < win0_2.index ⟨(i 0).val / 4000, ht⟩ 1 * 256 + 256
    rw [e5]; omega

/-- The output array after the call: the host's product of the two operand arrays as the call finds them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

/-- The operand arrays are never written back. -/
theorem kept_x (c : Dev nD) : (dat0 V c).arrAt 0 cfg0.N = V c main_arg0 :=
  ((dat0 V c).arrAt_in 0 rfl _).trans (A_eq0 V c 0)
theorem kept_w (c : Dev nD) : (dat0 V c).arrAt 1 cfg0.N = V c main_arg3 :=
  ((dat0 V c).arrAt_in 1 rfl _).trans (A_eq0 V c 1)

end Cert.KernelIdeal.Region0

end
-- ==== Proof.Region1.lean ====
/-
  Pallas call 1 of the program: `main_v48 = main_v47 · main_arg5`, a `[100000, 256]` matrix times a `[256, 256]` matrix,
  computed 4000 rows at a time over 25 grid points.

  At point `t` the body loads rows `4000·t … 4000·t + 3999` of the left operand and the whole right operand, narrows both to
  bf16 (the identity on extended reals), multiplies them into a zero accumulator and stores the `[4000, 256]` result, which
  is written back to the same rows of the output. Entry `(r, e)` of that block is `∑ f, X (4000·t + r, f) * W (f, e)`, which is
  entry `(4000·t + r, e)` of the whole product: every point writes its own rows of ONE array, the product, and the 25
  row blocks cover all 100000 rows. So the output array ends holding the host's product of the two arrays as the call
  finds them, and the two operand arrays are not written.
-/
import proofs.«119335_j609885356937_1_alg».proof.Proof.Gen.KernelIdeal.Frame
import proofs.«119335_j609885356937_1_alg».proof.Proof.MatmulAt
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

-- the buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The whole product of a `[100000, 256]` by a `[256, 256]` array, as the host computes it. -/
abbrev prod (X : Vec Ideal S100000x256 .f32) (W : Vec Ideal S256x256 .f32) : Vec Ideal S100000x256 .f32 :=
  Host.dotGeneral (F := Ideal) (φ₁ := .f32) (φ₂ := .f32) (DotDims.plain 100000 256 256) none X W

/-- What the body stores, at an entry `y` of the block: when row `y 0` of the left block is row `k 0` of `X`, the right block is
    `W` on column `y 1`, and `k` is in that column, it is the whole product's entry `k`. -/
theorem pay_at (x0 : Vec Ideal S4000x256 .f32) (x1 : Vec Ideal S256x256 .f32)
    (X : Vec Ideal S100000x256 .f32) (W : Vec Ideal S256x256 .f32) (y : S4000x256.Idx) (k : S100000x256.Idx)
    (hk : (k 1).val = (y 1).val)
    (hx : ∀ f : Fin 256, x0 (ix2 (y 0) f) = X (ix2 (k 0) f))
    (hw : ∀ f : Fin 256, x1 (ix2 f (y 1)) = W (ix2 f (y 1))) :
    k1_pay1 x0 x1 y = prod X W k := by
  obtain ⟨r, e, rfl⟩ : ∃ (r : Fin 4000) (e : Fin 256), y = ix2 r e := ⟨y 0, y 1, eq_ix2 y⟩
  obtain ⟨P, e', rfl⟩ : ∃ (P : Fin 100000) (e' : Fin 256), k = ix2 P e' := ⟨k 0, k 1, eq_ix2 k⟩
  obtain rfl : e' = e := Fin.ext hk
  unfold k1_pay1
  first | rw [shapeCast_self] | skip
  exact Cert.GcnMatmul.block_product none none X W x0 x1 r e' P hx hw

/-- The printed index maps, decided over the grid: the left operand's and the output's blocks move down the rows with the
    point, the right operand's block is the whole array at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `4000·t … 4000·t + 3999` of its array. -/
theorem iblk_x (c : Dev nD) (t : Fin cfg1.N) (x : S4000x256.Idx) (k : S100000x256.Idx)
    (hk0 : (k 0).val = t.val * 4000 + (x 0).val) (hk1 : (k 1).val = (x 1).val) :
    (iblk1 V c 0 t : Vec Ideal S4000x256 .f32) x = (V c main_v47 : Vec Ideal S100000x256 .f32) k := by
  obtain ⟨e0, e1, -, -, -, -⟩ := idx_facts t
  unfold iblk1
  rw [View.read_apply]
  show V c main_v47 _ = V c main_v47 _
  congr 1
  funext a
  apply Fin.ext
  match a with
  | ⟨0, _⟩ => show win1_0.index t 0 * 4000 + 1 * (x 0).val = (k 0).val; rw [e0, hk0]; omega
  | ⟨1, _⟩ => show win1_0.index t 1 * 256 + 1 * (x 1).val = (k 1).val; rw [e1, hk1]; omega

/-- The right operand's block at every point is its whole array. -/
theorem iblk_w (c : Dev nD) (t : Fin cfg1.N) (x : S256x256.Idx) :
    (iblk1 V c 1 t : Vec Ideal S256x256 .f32) x = (V c main_arg5 : Vec Ideal S256x256 .f32) x := by
  obtain ⟨-, -, e2, e3, -, -⟩ := idx_facts t
  unfold iblk1
  rw [View.read_apply]
  show V c main_arg5 _ = V c main_arg5 _
  congr 1
  funext a
  apply Fin.ext
  match a with
  | ⟨0, _⟩ => show win1_1.index t 0 * 256 + 1 * (x 0).val = (x 0).val; rw [e2]; omega
  | ⟨1, _⟩ => show win1_1.index t 1 * 256 + 1 * (x 1).val = (x 1).val; rw [e3]; omega

/-- What point `t` writes back is block `t` of the whole product of the arrays as the call finds them. -/
theorem flushed_eq (c : Dev nD) (t : Fin cfg1.N) :
    (dat1 V c).flushed 2 t = ((cfg1.win 2).blk t).view.read (Elt Ideal) (prod (V c main_v47) (V c main_arg5)) := by
  show (cfg1.win 2).cut (grid1.coords t) ((dat1 V c).after 2 t) = _
  rw [after1_2]
  unfold out1_2
  rw [View.canon_unit_zero hz]
  simp only [View.ld_unit_zero (S := S4000x256) hz, View.ld_unit_zero (S := S256x256) hz]
  obtain ⟨-, -, -, -, e4, e5⟩ := idx_facts t
  funext y
  show k1_pay1 (iblk1 V c 0 t) (iblk1 V c 1 t) y = prod (V c main_v47) (V c main_arg5) (((cfg1.win 2).blk t).view.emb y)
  refine pay_at (iblk1 V c 0 t) (iblk1 V c 1 t) (V c main_v47) (V c main_arg5) y (((cfg1.win 2).blk t).view.emb y) ?_ (fun f => ?_) (fun f => ?_)
  · show win1_2.index t 1 * 256 + 1 * (y 1).val = (y 1).val
    rw [e5]; omega
  · refine iblk_x V c t _ _ ?_ rfl
    show win1_2.index t 0 * 4000 + 1 * (y 0).val = t.val * 4000 + (y 0).val
    rw [e4]; omega
  · exact iblk_w V c t _

/-- An index of the output array is in point `t`'s block iff each coordinate is in the block's range on its axis. -/
theorem mem_blk (t : Fin cfg1.N) (i : S100000x256.Idx) :
    i ∈ ((cfg1.win 2).blk t).view.set ↔ ∀ a : Fin 2, win1_2.index t a * S4000x256.size a ≤ (i a).val ∧ (i a).val < win1_2.index t a * S4000x256.size a + S4000x256.size a := by
  show i ∈ ((View.whole main_v48).slice (win1_2.rect t)).set ↔ _
  rw [View.set_slice_whole, Rect.mem_set_unit]
  exact Iff.rfl

/-- Row `r` of the output is in the block of point `r / 4000`: the row blocks cover the array. -/
theorem cover (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  have hN : cfg1.N = 25 := N_1
  have ht : (i 0).val / 4000 < cfg1.N := by rw [hN]; omega
  obtain ⟨-, -, -, -, e4, e5⟩ := idx_facts ⟨(i 0).val / 4000, ht⟩
  refine ⟨⟨(i 0).val / 4000, ht⟩, flush1_2 _, ?_⟩
  rw [mem_blk]
  intro a
  match a with
  | ⟨0, _⟩ =>
    show win1_2.index ⟨(i 0).val / 4000, ht⟩ 0 * 4000 ≤ (i 0).val ∧ (i 0).val < win1_2.index ⟨(i 0).val / 4000, ht⟩ 0 * 4000 + 4000
    rw [e4]; show (i 0).val / 4000 * 4000 ≤ (i 0).val ∧ (i 0).val < (i 0).val / 4000 * 4000 + 4000; omega
  | ⟨1, _⟩ =>
    show win1_2.index ⟨(i 0).val / 4000, ht⟩ 1 * 256 ≤ (i 1).val ∧ (i 1).val < win1_2.index ⟨(i 0).val / 4000, ht⟩ 1 * 256 + 256
    rw [e5]; omega

/-- The output array after the call: the host's product of the two operand arrays as the call finds them. -/
theorem final (c : Dev nD) : (dat1 V c).arrAt 2 cfg1.N = prod (V c main_v47) (V c main_arg5) :=
  (dat1 V c).arrAt_eq_of_cover 2 (prod (V c main_v47) (V c main_arg5)) (fun t _ => flushed_eq V c t) cover

/-- The operand arrays are never written back. -/
theorem kept_x (c : Dev nD) : (dat1 V c).arrAt 0 cfg1.N = V c main_v47 :=
  ((dat1 V c).arrAt_in 0 rfl _).trans (A_eq1 V c 0)
theorem kept_w (c : Dev nD) : (dat1 V c).arrAt 1 cfg1.N = V c main_arg5 :=
  ((dat1 V c).arrAt_in 1 rfl _).trans (A_eq1 V c 1)

end Cert.KernelIdeal.Region1

end
-- ==== Proof.Region2.lean ====
/-
  Pallas call 2 of the program: `main_v92 = main_v91 · main_arg7`, a `[100000, 256]` matrix times a `[256, 256]` matrix,
  computed 4000 rows at a time over 25 grid points.

  At point `t` the body loads rows `4000·t … 4000·t + 3999` of the left operand and the whole right operand, narrows both to
  bf16 (the identity on extended reals), multiplies them into a zero accumulator and stores the `[4000, 256]` result, which
  is written back to the same rows of the output. Entry `(r, e)` of that block is `∑ f, X (4000·t + r, f) * W (f, e)`, which is
  entry `(4000·t + r, e)` of the whole product: every point writes its own rows of ONE array, the product, and the 25
  row blocks cover all 100000 rows. So the output array ends holding the host's product of the two arrays as the call
  finds them, and the two operand arrays are not written.
-/
import proofs.«119335_j609885356937_1_alg».proof.Proof.Gen.KernelIdeal.Frame
import proofs.«119335_j609885356937_1_alg».proof.Proof.MatmulAt
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

-- the buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The whole product of a `[100000, 256]` by a `[256, 256]` array, as the host computes it. -/
abbrev prod (X : Vec Ideal S100000x256 .f32) (W : Vec Ideal S256x256 .f32) : Vec Ideal S100000x256 .f32 :=
  Host.dotGeneral (F := Ideal) (φ₁ := .f32) (φ₂ := .f32) (DotDims.plain 100000 256 256) none X W

/-- What the body stores, at an entry `y` of the block: when row `y 0` of the left block is row `k 0` of `X`, the right block is
    `W` on column `y 1`, and `k` is in that column, it is the whole product's entry `k`. -/
theorem pay_at (x0 : Vec Ideal S4000x256 .f32) (x1 : Vec Ideal S256x256 .f32)
    (X : Vec Ideal S100000x256 .f32) (W : Vec Ideal S256x256 .f32) (y : S4000x256.Idx) (k : S100000x256.Idx)
    (hk : (k 1).val = (y 1).val)
    (hx : ∀ f : Fin 256, x0 (ix2 (y 0) f) = X (ix2 (k 0) f))
    (hw : ∀ f : Fin 256, x1 (ix2 f (y 1)) = W (ix2 f (y 1))) :
    k2_pay1 x0 x1 y = prod X W k := by
  obtain ⟨r, e, rfl⟩ : ∃ (r : Fin 4000) (e : Fin 256), y = ix2 r e := ⟨y 0, y 1, eq_ix2 y⟩
  obtain ⟨P, e', rfl⟩ : ∃ (P : Fin 100000) (e' : Fin 256), k = ix2 P e' := ⟨k 0, k 1, eq_ix2 k⟩
  obtain rfl : e' = e := Fin.ext hk
  unfold k2_pay1
  first | rw [shapeCast_self] | skip
  exact Cert.GcnMatmul.block_product none none X W x0 x1 r e' P hx hw

/-- The printed index maps, decided over the grid: the left operand's and the output's blocks move down the rows with the
    point, the right operand's block is the whole array at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `4000·t … 4000·t + 3999` of its array. -/
theorem iblk_x (c : Dev nD) (t : Fin cfg2.N) (x : S4000x256.Idx) (k : S100000x256.Idx)
    (hk0 : (k 0).val = t.val * 4000 + (x 0).val) (hk1 : (k 1).val = (x 1).val) :
    (iblk2 V c 0 t : Vec Ideal S4000x256 .f32) x = (V c main_v91 : Vec Ideal S100000x256 .f32) k := by
  obtain ⟨e0, e1, -, -, -, -⟩ := idx_facts t
  unfold iblk2
  rw [View.read_apply]
  show V c main_v91 _ = V c main_v91 _
  congr 1
  funext a
  apply Fin.ext
  match a with
  | ⟨0, _⟩ => show win2_0.index t 0 * 4000 + 1 * (x 0).val = (k 0).val; rw [e0, hk0]; omega
  | ⟨1, _⟩ => show win2_0.index t 1 * 256 + 1 * (x 1).val = (k 1).val; rw [e1, hk1]; omega

/-- The right operand's block at every point is its whole array. -/
theorem iblk_w (c : Dev nD) (t : Fin cfg2.N) (x : S256x256.Idx) :
    (iblk2 V c 1 t : Vec Ideal S256x256 .f32) x = (V c main_arg7 : Vec Ideal S256x256 .f32) x := by
  obtain ⟨-, -, e2, e3, -, -⟩ := idx_facts t
  unfold iblk2
  rw [View.read_apply]
  show V c main_arg7 _ = V c main_arg7 _
  congr 1
  funext a
  apply Fin.ext
  match a with
  | ⟨0, _⟩ => show win2_1.index t 0 * 256 + 1 * (x 0).val = (x 0).val; rw [e2]; omega
  | ⟨1, _⟩ => show win2_1.index t 1 * 256 + 1 * (x 1).val = (x 1).val; rw [e3]; omega

/-- What point `t` writes back is block `t` of the whole product of the arrays as the call finds them. -/
theorem flushed_eq (c : Dev nD) (t : Fin cfg2.N) :
    (dat2 V c).flushed 2 t = ((cfg2.win 2).blk t).view.read (Elt Ideal) (prod (V c main_v91) (V c main_arg7)) := by
  show (cfg2.win 2).cut (grid2.coords t) ((dat2 V c).after 2 t) = _
  rw [after2_2]
  unfold out2_2
  rw [View.canon_unit_zero hz]
  simp only [View.ld_unit_zero (S := S4000x256) hz, View.ld_unit_zero (S := S256x256) hz]
  obtain ⟨-, -, -, -, e4, e5⟩ := idx_facts t
  funext y
  show k2_pay1 (iblk2 V c 0 t) (iblk2 V c 1 t) y = prod (V c main_v91) (V c main_arg7) (((cfg2.win 2).blk t).view.emb y)
  refine pay_at (iblk2 V c 0 t) (iblk2 V c 1 t) (V c main_v91) (V c main_arg7) y (((cfg2.win 2).blk t).view.emb y) ?_ (fun f => ?_) (fun f => ?_)
  · show win2_2.index t 1 * 256 + 1 * (y 1).val = (y 1).val
    rw [e5]; omega
  · refine iblk_x V c t _ _ ?_ rfl
    show win2_2.index t 0 * 4000 + 1 * (y 0).val = t.val * 4000 + (y 0).val
    rw [e4]; omega
  · exact iblk_w V c t _

/-- An index of the output array is in point `t`'s block iff each coordinate is in the block's range on its axis. -/
theorem mem_blk (t : Fin cfg2.N) (i : S100000x256.Idx) :
    i ∈ ((cfg2.win 2).blk t).view.set ↔ ∀ a : Fin 2, win2_2.index t a * S4000x256.size a ≤ (i a).val ∧ (i a).val < win2_2.index t a * S4000x256.size a + S4000x256.size a := by
  show i ∈ ((View.whole main_v92).slice (win2_2.rect t)).set ↔ _
  rw [View.set_slice_whole, Rect.mem_set_unit]
  exact Iff.rfl

/-- Row `r` of the output is in the block of point `r / 4000`: the row blocks cover the array. -/
theorem cover (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  have hN : cfg2.N = 25 := N_2
  have ht : (i 0).val / 4000 < cfg2.N := by rw [hN]; omega
  obtain ⟨-, -, -, -, e4, e5⟩ := idx_facts ⟨(i 0).val / 4000, ht⟩
  refine ⟨⟨(i 0).val / 4000, ht⟩, flush2_2 _, ?_⟩
  rw [mem_blk]
  intro a
  match a with
  | ⟨0, _⟩ =>
    show win2_2.index ⟨(i 0).val / 4000, ht⟩ 0 * 4000 ≤ (i 0).val ∧ (i 0).val < win2_2.index ⟨(i 0).val / 4000, ht⟩ 0 * 4000 + 4000
    rw [e4]; show (i 0).val / 4000 * 4000 ≤ (i 0).val ∧ (i 0).val < (i 0).val / 4000 * 4000 + 4000; omega
  | ⟨1, _⟩ =>
    show win2_2.index ⟨(i 0).val / 4000, ht⟩ 1 * 256 ≤ (i 1).val ∧ (i 1).val < win2_2.index ⟨(i 0).val / 4000, ht⟩ 1 * 256 + 256
    rw [e5]; omega

/-- The output array after the call: the host's product of the two operand arrays as the call finds them. -/
theorem final (c : Dev nD) : (dat2 V c).arrAt 2 cfg2.N = prod (V c main_v91) (V c main_arg7) :=
  (dat2 V c).arrAt_eq_of_cover 2 (prod (V c main_v91) (V c main_arg7)) (fun t _ => flushed_eq V c t) cover

/-- The operand arrays are never written back. -/
theorem kept_x (c : Dev nD) : (dat2 V c).arrAt 0 cfg2.N = V c main_v91 :=
  ((dat2 V c).arrAt_in 0 rfl _).trans (A_eq2 V c 0)
theorem kept_w (c : Dev nD) : (dat2 V c).arrAt 1 cfg2.N = V c main_arg7 :=
  ((dat2 V c).arrAt_in 1 rfl _).trans (A_eq2 V c 1)

end Cert.KernelIdeal.Region2

end
-- ==== Proof.Region3.lean ====
/-
  Pallas call 3 of the program: `main_v136 = main_v135 · main_arg9`, a `[100000, 256]` matrix times a `[256, 256]` matrix,
  computed 4000 rows at a time over 25 grid points.

  At point `t` the body loads rows `4000·t … 4000·t + 3999` of the left operand and the whole right operand, narrows both to
  bf16 (the identity on extended reals), multiplies them into a zero accumulator and stores the `[4000, 256]` result, which
  is written back to the same rows of the output. Entry `(r, e)` of that block is `∑ f, X (4000·t + r, f) * W (f, e)`, which is
  entry `(4000·t + r, e)` of the whole product: every point writes its own rows of ONE array, the product, and the 25
  row blocks cover all 100000 rows. So the output array ends holding the host's product of the two arrays as the call
  finds them, and the two operand arrays are not written.
-/
import proofs.«119335_j609885356937_1_alg».proof.Proof.Gen.KernelIdeal.Frame
import proofs.«119335_j609885356937_1_alg».proof.Proof.MatmulAt
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

-- the buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The whole product of a `[100000, 256]` by a `[256, 256]` array, as the host computes it. -/
abbrev prod (X : Vec Ideal S100000x256 .f32) (W : Vec Ideal S256x256 .f32) : Vec Ideal S100000x256 .f32 :=
  Host.dotGeneral (F := Ideal) (φ₁ := .f32) (φ₂ := .f32) (DotDims.plain 100000 256 256) none X W

/-- What the body stores, at an entry `y` of the block: when row `y 0` of the left block is row `k 0` of `X`, the right block is
    `W` on column `y 1`, and `k` is in that column, it is the whole product's entry `k`. -/
theorem pay_at (x0 : Vec Ideal S4000x256 .f32) (x1 : Vec Ideal S256x256 .f32)
    (X : Vec Ideal S100000x256 .f32) (W : Vec Ideal S256x256 .f32) (y : S4000x256.Idx) (k : S100000x256.Idx)
    (hk : (k 1).val = (y 1).val)
    (hx : ∀ f : Fin 256, x0 (ix2 (y 0) f) = X (ix2 (k 0) f))
    (hw : ∀ f : Fin 256, x1 (ix2 f (y 1)) = W (ix2 f (y 1))) :
    k3_pay1 x0 x1 y = prod X W k := by
  obtain ⟨r, e, rfl⟩ : ∃ (r : Fin 4000) (e : Fin 256), y = ix2 r e := ⟨y 0, y 1, eq_ix2 y⟩
  obtain ⟨P, e', rfl⟩ : ∃ (P : Fin 100000) (e' : Fin 256), k = ix2 P e' := ⟨k 0, k 1, eq_ix2 k⟩
  obtain rfl : e' = e := Fin.ext hk
  unfold k3_pay1
  first | rw [shapeCast_self] | skip
  exact Cert.GcnMatmul.block_product none none X W x0 x1 r e' P hx hw

/-- The printed index maps, decided over the grid: the left operand's and the output's blocks move down the rows with the
    point, the right operand's block is the whole array at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point `t` is rows `4000·t … 4000·t + 3999` of its array. -/
theorem iblk_x (c : Dev nD) (t : Fin cfg3.N) (x : S4000x256.Idx) (k : S100000x256.Idx)
    (hk0 : (k 0).val = t.val * 4000 + (x 0).val) (hk1 : (k 1).val = (x 1).val) :
    (iblk3 V c 0 t : Vec Ideal S4000x256 .f32) x = (V c main_v135 : Vec Ideal S100000x256 .f32) k := by
  obtain ⟨e0, e1, -, -, -, -⟩ := idx_facts t
  unfold iblk3
  rw [View.read_apply]
  show V c main_v135 _ = V c main_v135 _
  congr 1
  funext a
  apply Fin.ext
  match a with
  | ⟨0, _⟩ => show win3_0.index t 0 * 4000 + 1 * (x 0).val = (k 0).val; rw [e0, hk0]; omega
  | ⟨1, _⟩ => show win3_0.index t 1 * 256 + 1 * (x 1).val = (k 1).val; rw [e1, hk1]; omega

/-- The right operand's block at every point is its whole array. -/
theorem iblk_w (c : Dev nD) (t : Fin cfg3.N) (x : S256x256.Idx) :
    (iblk3 V c 1 t : Vec Ideal S256x256 .f32) x = (V c main_arg9 : Vec Ideal S256x256 .f32) x := by
  obtain ⟨-, -, e2, e3, -, -⟩ := idx_facts t
  unfold iblk3
  rw [View.read_apply]
  show V c main_arg9 _ = V c main_arg9 _
  congr 1
  funext a
  apply Fin.ext
  match a with
  | ⟨0, _⟩ => show win3_1.index t 0 * 256 + 1 * (x 0).val = (x 0).val; rw [e2]; omega
  | ⟨1, _⟩ => show win3_1.index t 1 * 256 + 1 * (x 1).val = (x 1).val; rw [e3]; omega

/-- What point `t` writes back is block `t` of the whole product of the arrays as the call finds them. -/
theorem flushed_eq (c : Dev nD) (t : Fin cfg3.N) :
    (dat3 V c).flushed 2 t = ((cfg3.win 2).blk t).view.read (Elt Ideal) (prod (V c main_v135) (V c main_arg9)) := by
  show (cfg3.win 2).cut (grid3.coords t) ((dat3 V c).after 2 t) = _
  rw [after3_2]
  unfold out3_2
  rw [View.canon_unit_zero hz]
  simp only [View.ld_unit_zero (S := S4000x256) hz, View.ld_unit_zero (S := S256x256) hz]
  obtain ⟨-, -, -, -, e4, e5⟩ := idx_facts t
  funext y
  show k3_pay1 (iblk3 V c 0 t) (iblk3 V c 1 t) y = prod (V c main_v135) (V c main_arg9) (((cfg3.win 2).blk t).view.emb y)
  refine pay_at (iblk3 V c 0 t) (iblk3 V c 1 t) (V c main_v135) (V c main_arg9) y (((cfg3.win 2).blk t).view.emb y) ?_ (fun f => ?_) (fun f => ?_)
  · show win3_2.index t 1 * 256 + 1 * (y 1).val = (y 1).val
    rw [e5]; omega
  · refine iblk_x V c t _ _ ?_ rfl
    show win3_2.index t 0 * 4000 + 1 * (y 0).val = t.val * 4000 + (y 0).val
    rw [e4]; omega
  · exact iblk_w V c t _

/-- An index of the output array is in point `t`'s block iff each coordinate is in the block's range on its axis. -/
theorem mem_blk (t : Fin cfg3.N) (i : S100000x256.Idx) :
    i ∈ ((cfg3.win 2).blk t).view.set ↔ ∀ a : Fin 2, win3_2.index t a * S4000x256.size a ≤ (i a).val ∧ (i a).val < win3_2.index t a * S4000x256.size a + S4000x256.size a := by
  show i ∈ ((View.whole main_v136).slice (win3_2.rect t)).set ↔ _
  rw [View.set_slice_whole, Rect.mem_set_unit]
  exact Iff.rfl

/-- Row `r` of the output is in the block of point `r / 4000`: the row blocks cover the array. -/
theorem cover (i : S100000x256.Idx) :
    ∃ t : Fin cfg3.N, (cfg3.win 2).flush t = true ∧ i ∈ ((cfg3.win 2).blk t).view.set := by
  have hi0 : (i 0).val < 100000 := (i 0).isLt
  have hi1 : (i 1).val < 256 := (i 1).isLt
  have hN : cfg3.N = 25 := N_3
  have ht : (i 0).val / 4000 < cfg3.N := by rw [hN]; omega
  obtain ⟨-, -, -, -, e4, e5⟩ := idx_facts ⟨(i 0).val / 4000, ht⟩
  refine ⟨⟨(i 0).val / 4000, ht⟩, flush3_2 _, ?_⟩
  rw [mem_blk]
  intro a
  match a with
  | ⟨0, _⟩ =>
    show win3_2.index ⟨(i 0).val / 4000, ht⟩ 0 * 4000 ≤ (i 0).val ∧ (i 0).val < win3_2.index ⟨(i 0).val / 4000, ht⟩ 0 * 4000 + 4000
    rw [e4]; show (i 0).val / 4000 * 4000 ≤ (i 0).val ∧ (i 0).val < (i 0).val / 4000 * 4000 + 4000; omega
  | ⟨1, _⟩ =>
    show win3_2.index ⟨(i 0).val / 4000, ht⟩ 1 * 256 ≤ (i 1).val ∧ (i 1).val < win3_2.index ⟨(i 0).val / 4000, ht⟩ 1 * 256 + 256
    rw [e5]; omega

/-- The output array after the call: the host's product of the two operand arrays as the call finds them. -/
theorem final (c : Dev nD) : (dat3 V c).arrAt 2 cfg3.N = prod (V c main_v135) (V c main_arg9) :=
  (dat3 V c).arrAt_eq_of_cover 2 (prod (V c main_v135) (V c main_arg9)) (fun t _ => flushed_eq V c t) cover

/-- The operand arrays are never written back. -/
theorem kept_x (c : Dev nD) : (dat3 V c).arrAt 0 cfg3.N = V c main_v135 :=
  ((dat3 V c).arrAt_in 0 rfl _).trans (A_eq3 V c 0)
theorem kept_w (c : Dev nD) : (dat3 V c).arrAt 1 cfg3.N = V c main_arg9 :=
  ((dat3 V c).arrAt_in 1 rfl _).trans (A_eq3 V c 1)

end Cert.KernelIdeal.Region3

end
-- ==== Proof.Region4.lean ====
/-
  Pallas call 4 of the program: `main_v191 = main_v190 · main_arg11`, a `[4096, 256]` matrix times a `[256, 2]` matrix,
  computed 4096 rows at a time over 1 grid point.

  At point `t` the body loads rows `4096·t … 4096·t + 4095` of the left operand and the whole right operand, narrows both to
  bf16 (the identity on extended reals), multiplies them into a zero accumulator and stores the `[4096, 2]` result, which
  is written back to the same rows of the output. Entry `(r, e)` of that block is `∑ f, X (4096·t + r, f) * W (f, e)`, which is
  entry `(4096·t + r, e)` of the whole product: every point writes its own rows of ONE array, the product, and the 1
  row blocks cover all 4096 rows. So the output array ends holding the host's product of the two arrays as the call
  finds them, and the two operand arrays are not written.
-/
import proofs.«119335_j609885356937_1_alg».proof.Proof.Gen.KernelIdeal.Frame
import proofs.«119335_j609885356937_1_alg».proof.Proof.MatmulAt
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

-- the buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The whole product of a `[4096, 256]` by a `[256, 2]` array, as the host computes it. -/
abbrev prod (X : Vec Ideal S4096x256 .f32) (W : Vec Ideal S256x2 .f32) : Vec Ideal S4096x2 .f32 :=
  Host.dotGeneral (F := Ideal) (φ₁ := .f32) (φ₂ := .f32) (DotDims.plain 4096 256 2) none X W

/-- What the body stores, at an entry `y` of the block: when row `y 0` of the left block is row `k 0` of `X`, the right block is
    `W` on column `y 1`, and `k` is in that column, it is the whole product's entry `k`. -/
theorem pay_at (x0 : Vec Ideal S4096x256 .f32) (x1 : Vec Ideal S256x2 .f32)
    (X : Vec Ideal S4096x256 .f32) (W : Vec Ideal S256x2 .f32) (y : S4096x2.Idx) (k : S4096x2.Idx)
    (hk : (k 1).val = (y 1).val)
    (hx : ∀ f : Fin 256, x0 (ix2 (y 0) f) = X (ix2 (k 0) f))
    (hw : ∀ f : Fin 256, x1 (ix2 f (y 1)) = W (ix2 f (y 1))) :
    k4_pay1 x0 x1 y = prod X W k := by
  obtain ⟨r, e, rfl⟩ : ∃ (r : Fin 4096) (e : Fin 2), y = ix2 r e := ⟨y 0, y 1, eq_ix2 y⟩
  obtain ⟨P, e', rfl⟩ : ∃ (P : Fin 4096) (e' : Fin 2), k = ix2 P e' := ⟨k 0, k 1, eq_ix2 k⟩
  obtain rfl : e' = e := Fin.ext hk
  unfold k4_pay1
  first | rw [shapeCast_self] | skip
  exact Cert.GcnMatmul.block_product none none X W x0 x1 r e' P hx hw

/-- The printed index maps, decided over the grid: the left operand's and the output's blocks move down the rows with the
    point, the right operand's block is the whole array at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point `t` is rows `4096·t … 4096·t + 4095` of its array. -/
theorem iblk_x (c : Dev nD) (t : Fin cfg4.N) (x : S4096x256.Idx) (k : S4096x256.Idx)
    (hk0 : (k 0).val = t.val * 4096 + (x 0).val) (hk1 : (k 1).val = (x 1).val) :
    (iblk4 V c 0 t : Vec Ideal S4096x256 .f32) x = (V c main_v190 : Vec Ideal S4096x256 .f32) k := by
  obtain ⟨e0, e1, -, -, -, -⟩ := idx_facts t
  unfold iblk4
  rw [View.read_apply]
  show V c main_v190 _ = V c main_v190 _
  congr 1
  funext a
  apply Fin.ext
  match a with
  | ⟨0, _⟩ => show win4_0.index t 0 * 4096 + 1 * (x 0).val = (k 0).val; rw [e0, hk0]; omega
  | ⟨1, _⟩ => show win4_0.index t 1 * 256 + 1 * (x 1).val = (k 1).val; rw [e1, hk1]; omega

/-- The right operand's block at every point is its whole array. -/
theorem iblk_w (c : Dev nD) (t : Fin cfg4.N) (x : S256x2.Idx) :
    (iblk4 V c 1 t : Vec Ideal S256x2 .f32) x = (V c main_arg11 : Vec Ideal S256x2 .f32) x := by
  obtain ⟨-, -, e2, e3, -, -⟩ := idx_facts t
  unfold iblk4
  rw [View.read_apply]
  show V c main_arg11 _ = V c main_arg11 _
  congr 1
  funext a
  apply Fin.ext
  match a with
  | ⟨0, _⟩ => show win4_1.index t 0 * 256 + 1 * (x 0).val = (x 0).val; rw [e2]; omega
  | ⟨1, _⟩ => show win4_1.index t 1 * 2 + 1 * (x 1).val = (x 1).val; rw [e3]; omega

/-- What point `t` writes back is block `t` of the whole product of the arrays as the call finds them. -/
theorem flushed_eq (c : Dev nD) (t : Fin cfg4.N) :
    (dat4 V c).flushed 2 t = ((cfg4.win 2).blk t).view.read (Elt Ideal) (prod (V c main_v190) (V c main_arg11)) := by
  show (cfg4.win 2).cut (grid4.coords t) ((dat4 V c).after 2 t) = _
  rw [after4_2]
  unfold out4_2
  rw [View.canon_unit_zero hz]
  simp only [View.ld_unit_zero (S := S4096x256) hz, View.ld_unit_zero (S := S256x2) hz]
  obtain ⟨-, -, -, -, e4, e5⟩ := idx_facts t
  funext y
  show k4_pay1 (iblk4 V c 0 t) (iblk4 V c 1 t) y = prod (V c main_v190) (V c main_arg11) (((cfg4.win 2).blk t).view.emb y)
  refine pay_at (iblk4 V c 0 t) (iblk4 V c 1 t) (V c main_v190) (V c main_arg11) y (((cfg4.win 2).blk t).view.emb y) ?_ (fun f => ?_) (fun f => ?_)
  · show win4_2.index t 1 * 2 + 1 * (y 1).val = (y 1).val
    rw [e5]; omega
  · refine iblk_x V c t _ _ ?_ rfl
    show win4_2.index t 0 * 4096 + 1 * (y 0).val = t.val * 4096 + (y 0).val
    rw [e4]; omega
  · exact iblk_w V c t _

/-- An index of the output array is in point `t`'s block iff each coordinate is in the block's range on its axis. -/
theorem mem_blk (t : Fin cfg4.N) (i : S4096x2.Idx) :
    i ∈ ((cfg4.win 2).blk t).view.set ↔ ∀ a : Fin 2, win4_2.index t a * S4096x2.size a ≤ (i a).val ∧ (i a).val < win4_2.index t a * S4096x2.size a + S4096x2.size a := by
  show i ∈ ((View.whole main_v191).slice (win4_2.rect t)).set ↔ _
  rw [View.set_slice_whole, Rect.mem_set_unit]
  exact Iff.rfl

/-- Row `r` of the output is in the block of point `r / 4096`: the row blocks cover the array. -/
theorem cover (i : S4096x2.Idx) :
    ∃ t : Fin cfg4.N, (cfg4.win 2).flush t = true ∧ i ∈ ((cfg4.win 2).blk t).view.set := by
  have hi0 : (i 0).val < 4096 := (i 0).isLt
  have hi1 : (i 1).val < 2 := (i 1).isLt
  have hN : cfg4.N = 1 := N_4
  have ht : (i 0).val / 4096 < cfg4.N := by rw [hN]; omega
  obtain ⟨-, -, -, -, e4, e5⟩ := idx_facts ⟨(i 0).val / 4096, ht⟩
  refine ⟨⟨(i 0).val / 4096, ht⟩, flush4_2 _, ?_⟩
  rw [mem_blk]
  intro a
  match a with
  | ⟨0, _⟩ =>
    show win4_2.index ⟨(i 0).val / 4096, ht⟩ 0 * 4096 ≤ (i 0).val ∧ (i 0).val < win4_2.index ⟨(i 0).val / 4096, ht⟩ 0 * 4096 + 4096
    rw [e4]; show (i 0).val / 4096 * 4096 ≤ (i 0).val ∧ (i 0).val < (i 0).val / 4096 * 4096 + 4096; omega
  | ⟨1, _⟩ =>
    show win4_2.index ⟨(i 0).val / 4096, ht⟩ 1 * 2 ≤ (i 1).val ∧ (i 1).val < win4_2.index ⟨(i 0).val / 4096, ht⟩ 1 * 2 + 2
    rw [e5]; omega

/-- The output array after the call: the host's product of the two operand arrays as the call finds them. -/
theorem final (c : Dev nD) : (dat4 V c).arrAt 2 cfg4.N = prod (V c main_v190) (V c main_arg11) :=
  (dat4 V c).arrAt_eq_of_cover 2 (prod (V c main_v190) (V c main_arg11)) (fun t _ => flushed_eq V c t) cover

/-- The operand arrays are never written back. -/
theorem kept_x (c : Dev nD) : (dat4 V c).arrAt 0 cfg4.N = V c main_v190 :=
  ((dat4 V c).arrAt_in 0 rfl _).trans (A_eq4 V c 0)
theorem kept_w (c : Dev nD) : (dat4 V c).arrAt 1 cfg4.N = V c main_arg11 :=
  ((dat4 V c).arrAt_in 1 rfl _).trans (A_eq4 V c 1)

end Cert.KernelIdeal.Region4

end
-- ==== Proof.RegionReads.lean ====
/-
  Reading a buffer across one Pallas call, and the edge list joined with the self loops as a function of its two pieces.

  A Pallas call leaves in its output buffer the matrix product of its two operand buffers as it finds them (the per-call
  modules), and leaves its operand buffers and every buffer that is none of its three arrays as they were.
-/
import proofs.«119335_j609885356937_1_alg».proof.Proof.Gen.KernelIdeal.Frame
import proofs.«119335_j609885356937_1_alg».proof.Proof.Region0
import proofs.«119335_j609885356937_1_alg».proof.Proof.Region1
import proofs.«119335_j609885356937_1_alg».proof.Proof.Region2
import proofs.«119335_j609885356937_1_alg».proof.Proof.Region3
import proofs.«119335_j609885356937_1_alg».proof.Proof.Region4
import Idealize.ShloMosaic.Lib.StableHlo.Run

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Reading a buffer across a Pallas call -/

/-- Pallas call 0: its output buffer ends at the product of its operand buffers' entry contents; the operand buffers
    and every buffer that is none of its three arrays keep their entry contents. -/
theorem W2_out (c : Dev nD) : W2 m ρ c (no_index (Proc.devRef .tc main_v4))
    = Region0.prod (W1 m ρ c (Proc.devRef .tc main_arg0)) (W1 m ρ c (Proc.devRef .tc main_arg3)) :=
  (W2_arr m ρ c 2).trans (Region0.final (V1 m ρ) c)
theorem W2_x (c : Dev nD) : W2 m ρ c (no_index (Proc.devRef .tc main_arg0)) = W1 m ρ c (Proc.devRef .tc main_arg0) :=
  (W2_arr m ρ c 0).trans (Region0.kept_x (V1 m ρ) c)
theorem W2_w (c : Dev nD) : W2 m ρ c (no_index (Proc.devRef .tc main_arg3)) = W1 m ρ c (Proc.devRef .tc main_arg3) :=
  (W2_arr m ρ c 1).trans (Region0.kept_w (V1 m ρ) c)
theorem W2_other (c : Dev nD) {b : Ref sig .tc} (hb : ∀ w, Pipeline.arrRef spec0 w ≠ b) :
    W2 m ρ c (no_index (Proc.devRef .tc b)) = W1 m ρ c (Proc.devRef .tc b) :=
  W2_of_ne m ρ c b hb

/-- Pallas call 1: its output buffer ends at the product of its operand buffers' entry contents; the operand buffers
    and every buffer that is none of its three arrays keep their entry contents. -/
theorem W7_out (c : Dev nD) : W7 m ρ c (no_index (Proc.devRef .tc main_v48))
    = Region1.prod (W6 m ρ c (Proc.devRef .tc main_v47)) (W6 m ρ c (Proc.devRef .tc main_arg5)) :=
  (W7_arr m ρ c 2).trans (Region1.final (V6 m ρ) c)
theorem W7_x (c : Dev nD) : W7 m ρ c (no_index (Proc.devRef .tc main_v47)) = W6 m ρ c (Proc.devRef .tc main_v47) :=
  (W7_arr m ρ c 0).trans (Region1.kept_x (V6 m ρ) c)
theorem W7_w (c : Dev nD) : W7 m ρ c (no_index (Proc.devRef .tc main_arg5)) = W6 m ρ c (Proc.devRef .tc main_arg5) :=
  (W7_arr m ρ c 1).trans (Region1.kept_w (V6 m ρ) c)
theorem W7_other (c : Dev nD) {b : Ref sig .tc} (hb : ∀ w, Pipeline.arrRef spec1 w ≠ b) :
    W7 m ρ c (no_index (Proc.devRef .tc b)) = W6 m ρ c (Proc.devRef .tc b) :=
  W7_of_ne m ρ c b hb

/-- Pallas call 2: its output buffer ends at the product of its operand buffers' entry contents; the operand buffers
    and every buffer that is none of its three arrays keep their entry contents. -/
theorem W12_out (c : Dev nD) : W12 m ρ c (no_index (Proc.devRef .tc main_v92))
    = Region2.prod (W11 m ρ c (Proc.devRef .tc main_v91)) (W11 m ρ c (Proc.devRef .tc main_arg7)) :=
  (W12_arr m ρ c 2).trans (Region2.final (V11 m ρ) c)
theorem W12_x (c : Dev nD) : W12 m ρ c (no_index (Proc.devRef .tc main_v91)) = W11 m ρ c (Proc.devRef .tc main_v91) :=
  (W12_arr m ρ c 0).trans (Region2.kept_x (V11 m ρ) c)
theorem W12_w (c : Dev nD) : W12 m ρ c (no_index (Proc.devRef .tc main_arg7)) = W11 m ρ c (Proc.devRef .tc main_arg7) :=
  (W12_arr m ρ c 1).trans (Region2.kept_w (V11 m ρ) c)
theorem W12_other (c : Dev nD) {b : Ref sig .tc} (hb : ∀ w, Pipeline.arrRef spec2 w ≠ b) :
    W12 m ρ c (no_index (Proc.devRef .tc b)) = W11 m ρ c (Proc.devRef .tc b) :=
  W12_of_ne m ρ c b hb

/-- Pallas call 3: its output buffer ends at the product of its operand buffers' entry contents; the operand buffers
    and every buffer that is none of its three arrays keep their entry contents. -/
theorem W17_out (c : Dev nD) : W17 m ρ c (no_index (Proc.devRef .tc main_v136))
    = Region3.prod (W16 m ρ c (Proc.devRef .tc main_v135)) (W16 m ρ c (Proc.devRef .tc main_arg9)) :=
  (W17_arr m ρ c 2).trans (Region3.final (V16 m ρ) c)
theorem W17_x (c : Dev nD) : W17 m ρ c (no_index (Proc.devRef .tc main_v135)) = W16 m ρ c (Proc.devRef .tc main_v135) :=
  (W17_arr m ρ c 0).trans (Region3.kept_x (V16 m ρ) c)
theorem W17_w (c : Dev nD) : W17 m ρ c (no_index (Proc.devRef .tc main_arg9)) = W16 m ρ c (Proc.devRef .tc main_arg9) :=
  (W17_arr m ρ c 1).trans (Region3.kept_w (V16 m ρ) c)
theorem W17_other (c : Dev nD) {b : Ref sig .tc} (hb : ∀ w, Pipeline.arrRef spec3 w ≠ b) :
    W17 m ρ c (no_index (Proc.devRef .tc b)) = W16 m ρ c (Proc.devRef .tc b) :=
  W17_of_ne m ρ c b hb

/-- Pallas call 4: its output buffer ends at the product of its operand buffers' entry contents; the operand buffers
    and every buffer that is none of its three arrays keep their entry contents. -/
theorem W21_out (c : Dev nD) : W21 m ρ c (no_index (Proc.devRef .tc main_v191))
    = Region4.prod (W20 m ρ c (Proc.devRef .tc main_v190)) (W20 m ρ c (Proc.devRef .tc main_arg11)) :=
  (W21_arr m ρ c 2).trans (Region4.final (V20 m ρ) c)
theorem W21_x (c : Dev nD) : W21 m ρ c (no_index (Proc.devRef .tc main_v190)) = W20 m ρ c (Proc.devRef .tc main_v190) :=
  (W21_arr m ρ c 0).trans (Region4.kept_x (V20 m ρ) c)
theorem W21_w (c : Dev nD) : W21 m ρ c (no_index (Proc.devRef .tc main_arg11)) = W20 m ρ c (Proc.devRef .tc main_arg11) :=
  (W21_arr m ρ c 1).trans (Region4.kept_w (V20 m ρ) c)
theorem W21_other (c : Dev nD) {b : Ref sig .tc} (hb : ∀ w, Pipeline.arrRef spec4 w ≠ b) :
    W21 m ρ c (no_index (Proc.devRef .tc b)) = W20 m ρ c (Proc.devRef .tc b) :=
  W21_of_ne m ρ c b hb

/-! ## The edge list joined with the self loops -/

/-- A 400000-vector followed by a 100000-vector (the program's spelling), as a function of the two pieces. -/
def cat (a : S400000.Idx → Elt Ideal .i32) (b : S100000.Idx → Elt Ideal .i32) : S500000.Idx → Elt Ideal .i32 :=
  concatenate (α := Elt Ideal .i32) S500000 0 [⟨S400000, a⟩, ⟨S100000, b⟩] concatenates_S400000_S100000_S500000_d0
theorem cat_def (a : S400000.Idx → Elt Ideal .i32) (b : S100000.Idx → Elt Ideal .i32) :
    concatenate (α := Elt Ideal .i32) S500000 0 [⟨S400000, a⟩, ⟨S100000, b⟩] concatenates_S400000_S100000_S500000_d0 = cat a b := rfl

end Cert.KernelIdeal.Fold

end
-- ==== Proof.KernelValue.lean ====
/-
  The result buffer of the idealized program as ONE term of the argument buffers, and that term is the reference's.

  The program's final buffer contents are a fold through 22 segments: 17 stretches of host operations and 5 Pallas calls.
  A host operation rewrites its result buffer as its function of its operand buffers and keeps every other buffer; a
  Pallas call leaves in its output buffer the matrix product of its two operand buffers as it finds them and keeps every
  other buffer. Reading the result buffer back through the fold therefore gives the host operations' composed term of
  the arguments with a matrix product at each of the five calls. The reference is the same list of host operations with
  the host's own matrix product in the five places, on the same operands: reading ITS result buffer back through its
  operations gives the same term, so the two results agree whatever the (possibly infinite) intermediate values are.
  The reading is done in two sweeps: the first stops at the two pieces of each joined edge list, which are then named as
  arguments of one function, and the second reads the pieces back.
-/
import proofs.«119335_j609885356937_1_alg».proof.Proof.RegionReads
import proofs.«119335_j609885356937_1_alg».proof.Proof.RefRun

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The joined edge list in the reference's spelling, as a function of its two pieces. -/
def catR (a : Cert.ReferenceIdeal.S400000.Idx → Elt Ideal .i32) (b : Cert.ReferenceIdeal.S100000.Idx → Elt Ideal .i32) :
    Cert.ReferenceIdeal.S500000.Idx → Elt Ideal .i32 :=
  concatenate (α := Elt Ideal .i32) Cert.ReferenceIdeal.S500000 0 [⟨Cert.ReferenceIdeal.S400000, a⟩, ⟨Cert.ReferenceIdeal.S100000, b⟩]
    Cert.ReferenceIdeal.Facts₀.concatenates_S400000_S100000_S500000_d0
theorem catR_def (a : Cert.ReferenceIdeal.S400000.Idx → Elt Ideal .i32) (b : Cert.ReferenceIdeal.S100000.Idx → Elt Ideal .i32) :
    concatenate (α := Elt Ideal .i32) Cert.ReferenceIdeal.S500000 0 [⟨Cert.ReferenceIdeal.S400000, a⟩, ⟨Cert.ReferenceIdeal.S100000, b⟩]
      Cert.ReferenceIdeal.Facts₀.concatenates_S400000_S100000_S500000_d0 = catR a b := rfl

/-- One sweep: every host operation's result buffer at its function of its operand buffers, every other buffer kept; every
    Pallas call's output buffer at the product of its operand buffers, every other buffer kept. -/
macro "read_fold" : tactic => `(tactic| simp (disch := decide) only [W22, W20, W19, W18, W16, W15, W14, W13, W11, W10, W9, W8, W6, W5, W4, W3, W1,
    hostOps0, hostOps1, hostOps1_1, hostOps1_2, hostOps1_3, hostOps2, hostOps2_1, hostOps2_2, hostOps2_3, hostOps3, hostOps3_1, hostOps3_2, hostOps3_3, hostOps4, hostOps4_1, hostOps4_2, hostOps5,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    W2_out, W2_x, W2_w, W2_other, W7_out, W7_x, W7_w, W7_other, W12_out, W12_x, W12_w, W12_other, W17_out, W17_x, W17_w, W17_other, W21_out, W21_x, W21_w, W21_other,
    Cert.ReferenceIdeal.ValueP.ops])

set_option maxRecDepth 16384 in
set_option maxHeartbeats 1000000000 in
/-- The result buffer's final contents are what the reference's operations leave in ITS result buffer, from a launch
    memory that agrees on the arguments. -/
theorem result_eq (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12))
    (c : Dev nD) :
    W22 m ρ c (Proc.devRef .tc main_v194)
      = after (Cert.ReferenceIdeal.ValueP.ops (F := Ideal)) (launchContents m' c) (Proc.devRef .tc Cert.ReferenceIdeal.main_v194) := by
  have e0 : launchContents m' c (Proc.devRef .tc Cert.ReferenceIdeal.main_arg0) = W0 m ρ c (Proc.devRef .tc main_arg0) := (hagree c).1
  have e1 : launchContents m' c (Proc.devRef .tc Cert.ReferenceIdeal.main_arg1) = W0 m ρ c (Proc.devRef .tc main_arg1) := (hagree c).2.1
  have e2 : launchContents m' c (Proc.devRef .tc Cert.ReferenceIdeal.main_arg2) = W0 m ρ c (Proc.devRef .tc main_arg2) := (hagree c).2.2.1
  have e3 : launchContents m' c (Proc.devRef .tc Cert.ReferenceIdeal.main_arg3) = W0 m ρ c (Proc.devRef .tc main_arg3) := (hagree c).2.2.2.1
  have e4 : launchContents m' c (Proc.devRef .tc Cert.ReferenceIdeal.main_arg4) = W0 m ρ c (Proc.devRef .tc main_arg4) := (hagree c).2.2.2.2.1
  have e5 : launchContents m' c (Proc.devRef .tc Cert.ReferenceIdeal.main_arg5) = W0 m ρ c (Proc.devRef .tc main_arg5) := (hagree c).2.2.2.2.2.1
  have e6 : launchContents m' c (Proc.devRef .tc Cert.ReferenceIdeal.main_arg6) = W0 m ρ c (Proc.devRef .tc main_arg6) := (hagree c).2.2.2.2.2.2.1
  have e7 : launchContents m' c (Proc.devRef .tc Cert.ReferenceIdeal.main_arg7) = W0 m ρ c (Proc.devRef .tc main_arg7) := (hagree c).2.2.2.2.2.2.2.1
  have e8 : launchContents m' c (Proc.devRef .tc Cert.ReferenceIdeal.main_arg8) = W0 m ρ c (Proc.devRef .tc main_arg8) := (hagree c).2.2.2.2.2.2.2.2.1
  have e9 : launchContents m' c (Proc.devRef .tc Cert.ReferenceIdeal.main_arg9) = W0 m ρ c (Proc.devRef .tc main_arg9) := (hagree c).2.2.2.2.2.2.2.2.2.1
  have e10 : launchContents m' c (Proc.devRef .tc Cert.ReferenceIdeal.main_arg10) = W0 m ρ c (Proc.devRef .tc main_arg10) := (hagree c).2.2.2.2.2.2.2.2.2.2.1
  have e11 : launchContents m' c (Proc.devRef .tc Cert.ReferenceIdeal.main_arg11) = W0 m ρ c (Proc.devRef .tc main_arg11) := (hagree c).2.2.2.2.2.2.2.2.2.2.2.1
  have e12 : launchContents m' c (Proc.devRef .tc Cert.ReferenceIdeal.main_arg12) = W0 m ρ c (Proc.devRef .tc main_arg12) := (hagree c).2.2.2.2.2.2.2.2.2.2.2.2
  read_fold
  repeat rw [cat_def]
  repeat rw [catR_def]
  read_fold
  simp only [e0, e1, e2, e3, e4, e5, e6, e7, e8, e9, e10, e11, e12]
  rfl

end Cert.KernelIdeal.Fold

end
-- ==== Proof.lean ====
/-
  A graph convolution network over 100000 nodes — four layers `relu (Â (h W) + b)` (the last without relu), mean pooling
  over 4096 graphs, a linear classifier — with its five dense products `h W` computed by a Pallas kernel, against the
  same network with the products computed by the host.

  The two programs are the same list of host operations (the edge list with self loops, degrees by a scatter-add, their
  inverse square roots, the gathers and the scatter-add of each layer, bias, relu, the pooling's sums, counts and quotient,
  the last bias) except in five places, where one launches a Pallas kernel and the other applies the host's matrix
  product to the same two buffers. Each kernel multiplies a block of rows of its left operand by the whole right operand
  into a zero accumulator, after narrowing both to bf16, which on extended reals is the identity: the rows it writes are
  the matching rows of the whole product, a sum over the contracted coordinate with the same terms as the host's, and its
  row blocks cover the output. So the output buffer of every call holds the host's product of the call's operands, and
  reading the result buffer back through the program gives the reference's own composed term of the arguments. No
  algebraic law is used beyond rewriting summands, so the inputs' finiteness is never needed.

  The three frames are the generated ones (the reference's: its generated run with the result dropped); the ideal pass
  rewrote nothing, so `preserves` is trivial.
-/
import proofs.«119335_j609885356937_1_alg».proof.Defs
import proofs.«119335_j609885356937_1_alg».proof.Proof.Gen.Kernel
import proofs.«119335_j609885356937_1_alg».proof.Proof.Gen.Kernel.Skeleton
import proofs.«119335_j609885356937_1_alg».proof.Proof.Gen.Kernel.Launch
import proofs.«119335_j609885356937_1_alg».proof.Proof.Gen.Kernel.Points
import proofs.«119335_j609885356937_1_alg».proof.Proof.Gen.Kernel.Frame
import proofs.«119335_j609885356937_1_alg».proof.Proof.Gen.KernelIdeal
import proofs.«119335_j609885356937_1_alg».proof.Proof.Gen.KernelIdeal.Skeleton
import proofs.«119335_j609885356937_1_alg».proof.Proof.Gen.KernelIdeal.Launch
import proofs.«119335_j609885356937_1_alg».proof.Proof.Gen.KernelIdeal.Points
import proofs.«119335_j609885356937_1_alg».proof.Proof.Gen.KernelIdeal.Frame
import proofs.«119335_j609885356937_1_alg».proof.Proof.Gen.ReferenceIdeal
import proofs.«119335_j609885356937_1_alg».proof.Proof.Gen.Pre_finite_inputs
import proofs.«119335_j609885356937_1_alg».proof.Proof.RefRun
import proofs.«119335_j609885356937_1_alg».proof.Proof.KernelRun
import proofs.«119335_j609885356937_1_alg».proof.Proof.KernelValue
import Idealize.ShloMosaic.Adequacy
import Idealize.ShloMosaic.Init

noncomputable section

namespace Cert.Proof

open Idealize.ShloMosaic Idealize.ShloMosaic.TcCoe Idealize.SL.Sem

/-- The reference has no kernel: its frame is its run with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- Both programs end with the result buffer at the host operations' composed term of the arguments, a matrix product in
    each of the five places: the kernel's run leaves it at the last contents of its fold, the reference's at what its
    operations leave, and the two read back to the same term. -/
theorem algebraic : Cert.algebraic_KernelIdeal_ReferenceIdeal := by
  intro m ρ m' ρ' _ hagree
  refine ⟨fun c => Cert.KernelIdeal.Gen.W22 m ρ c (Proc.devRef .tc Cert.KernelIdeal.main_v194),
    Cert.KernelIdeal.Run.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.KernelIdeal.Fold.result_eq m ρ m' hagree c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ref,
    trivial,
    algebraic⟩

end Cert.Proof

end
